-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S64x4096 : Shape := ⟨2, ![64, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S2x4096x4096 .f32) (main_arg1 : FVec F S64x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S2x4096x4096 : Shape := ⟨3, ![2, 4096, 4096]⟩
abbrev S64x4096 : Shape := ⟨2, ![64, 4096]⟩
abbrev S8192x4096 : Shape := ⟨2, ![8192, 4096]⟩
abbrev S8192x64 : Shape := ⟨2, ![8192, 64]⟩
abbrev S512x2048 : Shape := ⟨2, ![512, 2048]⟩
abbrev S64x2048 : Shape := ⟨2, ![64, 2048]⟩
abbrev S512x64 : Shape := ⟨2, ![512, 64]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S8192x64, .f32⟩
  | .local _ .vmem, ⟨0, _⟩ => ⟨S512x2048, .f32⟩
  | .local _ .vmem, ⟨1, _⟩ => ⟨S512x2048, .f32⟩
  | .local _ .vmem, ⟨2, _⟩ => ⟨S64x2048, .f32⟩
  | .local _ .vmem, ⟨3, _⟩ => ⟨S64x2048, .f32⟩
  | .local _ .vmem, ⟨4, _⟩ => ⟨S512x64, .f32⟩
  | .local _ .vmem, ⟨5, _⟩ => ⟨S512x64, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .ne arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x4096x4096_S8192x4096 : S2x4096x4096.ShapeCasts S8192x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S64x2048_S64x2048_0_0 : ∀ a, (![0, 0] : Fin 2 → Nat) a + S64x2048.size a ≤ S64x2048.size a
  h_S64x2048 : 0 < S64x2048.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  dot_S512x2048_S64x2048_S512x64_1_1_0_0_n_n_wf : DotDims.WF S512x2048 S64x2048 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .f32 = 32 ∨ (Rect.block (s := S8192x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x4096.size a
  hwx0_1 : ∀ i : grid0.Coords, EltTy.bits .f32 = 32 ∨ (Rect.block (s := S64x4096) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S8192x64.size a
  hwx0_2 : ∀ i : grid0.Coords, EltTy.bits .f32 = 32 ∨ (Rect.block (s := S8192x64) S512x64.size (cc0_transform_2 i) (hinb0_2 i)).WholeWords (EltTy.packing .f32)

variable [Facts₀]

def dot_S512x2048_S64x2048_S512x64_1_1_0_0_n_n : DotDims S512x2048 S64x2048 S512x64 where
  lhsContracting := [1]
  rhsContracting := [1]
  lhsNonContracting := [0]
  rhsNonContracting := [0]
  lhsBatch := []
  rhsBatch := []
  wf := dot_S512x2048_S64x2048_S512x64_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S64x4096 : Shape := ⟨2, ![64, 4096]⟩
abbrev S8192x4096 : Shape := ⟨2, ![8192, 4096]⟩
abbrev S4096x64 : Shape := ⟨2, ![4096, 64]⟩
abbrev S8192x64 : Shape := ⟨2, ![8192, 64]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S4096x64, .f32⟩
  | .hbm, ⟨4, _⟩ => ⟨S8192x64, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S2x4096x4096_S8192x4096 : S2x4096x4096.ShapeCasts S8192x4096
  transposes_S64x4096_S4096x64_1_0 : S64x4096.Transposes [1, 0] S4096x64
  dot_S8192x4096_S4096x64_S8192x64_1_0_0_1_n_n_wf : DotDims.WF S8192x4096 S4096x64 S8192x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.KernelBody.lean ====
/-
  The kernel body of the router product, run once in each of its two cases, at any float instance.

  The grid is 16 row blocks by 2 halves of the contracted axis; point t = 2·i + j.  At j = 0 the body stores the
  partial product of the point's two input blocks into the output's staging buffer; at j = 1 it reads the buffer
  back and stores buffer + partial product.  Each run leaves the two input buffers as they were and the output
  buffer overwritten by one whole-block store; the list of stored pieces is what the run finds.
-/
import proofs.«103601_g45363444580704_cont_sun_m_752_16_alg».proof.Proof.Gen.Kernel.Frame
import proofs.«103601_g45363444580704_cont_sun_m_752_16_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first half of the contraction: the branch that stores the partial product. -/
abbrev isFirst (i : grid0.Coords) : Prop := k0_cond1 i = 1#1
/-- The second half: the branch that adds the partial product to what the buffer holds. -/
abbrev isSecond (i : grid0.Coords) : Prop := k0_cond2 i = 1#1

theorem isFirst_iff : ∀ t : Fin cfg0.N, isFirst (grid0.coords t) ↔ t.val % 2 = 0 :=
  (by decide +kernel : ∀ t : Fin grid0.N, isFirst (grid0.coords t) ↔ t.val % 2 = 0)
theorem isSecond_iff : ∀ t : Fin cfg0.N, isSecond (grid0.coords t) ↔ t.val % 2 = 1 :=
  (by decide +kernel : ∀ t : Fin grid0.N, isSecond (grid0.coords t) ↔ t.val % 2 = 1)

/-- No window is idle anywhere: one of the two branches stores at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- The staging memrefs the pipeline passes the body at point `t`. -/
abbrev bufX (t : Fin cfg0.N) : Memref sig .tc .vmem S512x2048 .f32 := win0_0.stage (cfg0.slots t 0)
abbrev bufX_whole (t : Fin cfg0.N) : (bufX t).IsWhole := hstage0_0 ((cfg0.slots t 0).cast nbuf0_0)
abbrev bufW (t : Fin cfg0.N) : Memref sig .tc .vmem S64x2048 .f32 := win0_1.stage (cfg0.slots t 1)
abbrev bufW_whole (t : Fin cfg0.N) : (bufW t).IsWhole := hstage0_1 ((cfg0.slots t 1).cast nbuf0_1)
abbrev bufO (t : Fin cfg0.N) : Memref sig .tc .vmem S512x64 .f32 := win0_2.stage (cfg0.slots t 2)
abbrev bufO_whole (t : Fin cfg0.N) : (bufO t).IsWhole := hstage0_2 ((cfg0.slots t 2).cast nbuf0_2)

theorem zeros2 : (![0, 0] : Fin 2 → Nat) = fun _ => 0 := funext fun a => by fin_cases a <;> rfl

/-! ## The body in the first half: the output buffer, at anything, ends at the pieces stored -/

set_option maxHeartbeats 1000000 in
noncomputable def runFirst (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : isFirst i) (hc1 : ¬isSecond i) (x0 : Vec F S512x2048 .f32) (x1 : Vec F S64x2048 .f32) :
    { L : List (View.Piece (Elt F) S512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__router_kernel i arg2 harg2 arg3 harg3 arg4 harg4) K } := by
  refine ⟨?_, fun E K => ?run⟩
  case run =>
    simp only [cc0__router_kernel_eq_skeleton]; unfold cc0__router_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The body in the second half: the output buffer, at `xo`, ends at the pieces stored -/

set_option maxHeartbeats 1000000 in
noncomputable def runSecond (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : ¬isFirst i) (hc1 : isSecond i) (x0 : Vec F S512x2048 .f32) (x1 : Vec F S64x2048 .f32) (xo : Vec F S512x64 .f32) :
    { L : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__router_kernel i arg2 harg2 arg3 harg3 arg4 harg4) K } := by
  refine ⟨?_, fun E K => ?run⟩
  case run =>
    simp only [cc0__router_kernel_eq_skeleton]; unfold cc0__router_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Acc

end
-- ==== Proof.KernelFrame.lean ====
/-
  The pipeline's proof data for the router product, the body obligation, the run and the frame, at any float instance.

  Point t = 2·i + j works on row block i and half j of the contracted axis.  After the body at an even point the
  output's staging buffer holds the partial product of that point's blocks; after the body at an odd point it holds
  (the partial product of the point before) + (the partial product of this point), because the buffer is not written
  back between the two and the body reads it before storing.  The output block is written back after odd points only.
-/
import proofs.«103601_g45363444580704_cont_sun_m_752_16_alg».proof.Proof.KernelBody

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer, as a value -/

/-- The one store of the first case covers the output block. -/
theorem coverFirst (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : isFirst i) (hc1 : ¬isSecond i) (x0 : Vec F S512x2048 .f32) (x1 : Vec F S64x2048 .f32) (y : S512x64.Idx) :
    ∃ pc ∈ (runFirst c i arg2 harg2 arg3 harg3 arg4 harg4 hc0 hc1 x0 x1).1, y ∈ pc.1.set :=
  View.cover_of_tiledL (runFirst c i arg2 harg2 arg3 harg3 arg4 harg4 hc0 hc1 x0 x1).1 S512x64.size (by sl_kernel_rfl) y

/-- So the first case leaves the partial product of the two input blocks, whatever the buffer held. -/
theorem leftFirst (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : isFirst i) (hc1 : ¬isSecond i) (x0 : Vec F S512x2048 .f32) (x1 : Vec F S64x2048 .f32) (f : arg4.view.ty.Contents (Elt F)) :
    arg4.view.read (Elt F) (arg4.view.writes (Elt F) f (runFirst c i arg2 harg2 arg3 harg3 arg4 harg4 hc0 hc1 x0 x1).1) = k0_pay1 x0 x1 := by
  rw [View.read_writes_eq_canon _ _ _ (coverFirst c i arg2 harg2 arg3 harg3 arg4 harg4 hc0 hc1 x0 x1)]
  unfold runFirst
  dsimp only
  rw [View.canon_unit_zero zeros2]
  simp only [View.readAt_eq_ld, harg2.read_unread, harg3.read_unread, View.ld_unit_zero (S := S512x2048) zeros2,
    View.ld_unit_zero (S := S64x2048) zeros2]

/-- The one store of the second case covers the output block. -/
theorem coverSecond (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : ¬isFirst i) (hc1 : isSecond i) (x0 : Vec F S512x2048 .f32) (x1 : Vec F S64x2048 .f32) (xo : Vec F S512x64 .f32) (y : S512x64.Idx) :
    ∃ pc ∈ (runSecond c i arg2 harg2 arg3 harg3 arg4 harg4 hc0 hc1 x0 x1 xo).1, y ∈ pc.1.set :=
  View.cover_of_tiledL (runSecond c i arg2 harg2 arg3 harg3 arg4 harg4 hc0 hc1 x0 x1 xo).1 S512x64.size (by sl_kernel_rfl) y

/-- So the second case leaves (what the buffer held) + (the partial product of the two input blocks). -/
theorem leftSecond (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : ¬isFirst i) (hc1 : isSecond i) (x0 : Vec F S512x2048 .f32) (x1 : Vec F S64x2048 .f32) (xo : Vec F S512x64 .f32)
    (f : arg4.view.ty.Contents (Elt F)) :
    arg4.view.read (Elt F) (arg4.view.writes (Elt F) f (runSecond c i arg2 harg2 arg3 harg3 arg4 harg4 hc0 hc1 x0 x1 xo).1) = k0_pay2 x0 x1 xo := by
  rw [View.read_writes_eq_canon _ _ _ (coverSecond c i arg2 harg2 arg3 harg3 arg4 harg4 hc0 hc1 x0 x1 xo)]
  unfold runSecond
  dsimp only
  rw [View.canon_unit_zero zeros2]
  simp only [View.readAt_eq_ld, harg2.read_unread, harg3.read_unread, harg4.read_unread, View.ld_unit_zero (S := S512x2048) zeros2,
    View.ld_unit_zero (S := S64x2048) zeros2, View.ld_unit_zero (S := S512x64) zeros2]

/-! ## What the output buffer holds after each point -/

/-- The point before `t` (`t` itself at the first point). -/
def prevPt (t : Fin cfg0.N) : Fin cfg0.N := ⟨t.val - 1, Nat.lt_of_le_of_lt (Nat.sub_le _ _) t.isLt⟩

/-- The partial product of point `t`'s two input blocks. -/
def partialAt (c : Dev nD) (t : Fin cfg0.N) : Vec F S512x64 .f32 := k0_pay1 (iblk m c 0 t) (iblk m c 1 t)

/-- The output buffer after the body at `t`: at an even point the point's partial product; at an odd point the
    partial product of the point before, plus this point's. -/
def heldAfter (c : Dev nD) (t : Fin cfg0.N) : Vec F S512x64 .f32 :=
  if t.val % 2 = 0 then partialAt m c t
  else k0_pay2 (iblk m c 0 t) (iblk m c 1 t) (partialAt m c (prevPt t))

theorem heldAfter_even (c : Dev nD) (t : Fin cfg0.N) (h : t.val % 2 = 0) : heldAfter m c t = k0_pay1 (iblk m c 0 t) (iblk m c 1 t) := by
  unfold heldAfter partialAt; rw [if_pos h]

theorem heldAfter_odd (c : Dev nD) (t : Fin cfg0.N) (h : t.val % 2 = 1) :
    heldAfter m c t = k0_pay2 (iblk m c 0 t) (iblk m c 1 t) (heldAfter m c (prevPt t)) := by
  have hp : (prevPt t).val % 2 = 0 := by show (t.val - 1) % 2 = 0; omega
  rw [heldAfter_even m c (prevPt t) hp]
  unfold heldAfter partialAt; rw [if_neg (by omega)]

/-! ## The proof data -/

/-- The arrays as the region finds them; after the body each input buffer at its block and the output buffer at
    `heldAfter`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => heldAfter m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = heldAfter m c t := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The output window is idle at no coordinates: one of the two branches is taken whatever the second coordinate. -/
theorem live2_all : ∀ i : grid0.Coords, cfg0.idle 2 i = false := by decide +kernel

/-- At an odd point the output's current staging buffer holds what the body left at the point before: the point is not
    the first, and the block is not written back after an even point. -/
theorem before2_odd (c : Dev nD) (t : Fin cfg0.N) (h1 : t.val % 2 = 1) (d) :
    (dats m 0 c).before 2 t d = heldAfter m c (prevPt t) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    live2_all (fun _ _ => rfl)]
  dsimp only [dats]
  rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (bufX t) fullShare ((dats m 0 c).before 0 t d))
    ∗ (∃ d, owns (c : Thread nD τ) (bufW t) fullShare ((dats m 0 c).before 1 t d))
    ∗ (∃ d, owns (c : Thread nD τ) (bufO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold their blocks; the parity of the point says which case it is in;
    at an odd point the output buffer holds what the point before left; so the case's run applies and leaves the
    output buffer at `heldAfter`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (bufX t) fullShare ((dats m 0 c).after 0 t) from by
    unfold Dat.leavesExact; rw [live0 t], after0]
  rw [show (dats m 0 c).leavesExact 1 t = owns (c : Thread nD τ) (bufW t) fullShare ((dats m 0 c).after 1 t) from by
    unfold Dat.leavesExact; rw [live1 t], after1]
  rw [show (dats m 0 c).leavesExact 2 t = owns (c : Thread nD τ) (bufO t) fullShare ((dats m 0 c).after 2 t) from by
    unfold Dat.leavesExact; rw [live2 t], after2]
  have hN : t.val < 32 := lt_of_lt_of_eq t.isLt (show cfg0.N = 32 from N_0)
  by_cases h0 : t.val % 2 = 0
  · have h1 : ¬t.val % 2 = 1 := by omega
    rw [heldAfter_even m c t h0]
    iintro ⟨HΦ, Ho, ⟨%d0, H0⟩, ⟨%d1, H1⟩, ⟨%d2, H2⟩⟩
    iapply ((runFirst c (grid0.coords t) _ _ _ _ _ _ ((isFirst_iff t).mpr h0) (fun h => h1 ((isSecond_iff t).mp h)) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact leftFirst c _ _ _ _ _ _ _ _ _ _ _ _
  · have h1 : t.val % 2 = 1 := by omega
    rw [heldAfter_odd m c t h1]
    simp only [before2_odd m c t h1]
    iintro ⟨HΦ, Ho, ⟨%d0, H0⟩, ⟨%d1, H1⟩, ⟨%d2, H2⟩⟩
    iapply ((runSecond c (grid0.coords t) _ _ _ _ _ _ (fun h => h0 ((isFirst_iff t).mp h)) ((isSecond_iff t).mpr h1) (iblk m c 0 t) (iblk m c 1 t) (heldAfter m c (prevPt t))).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact leftSecond c _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, every array of the pipeline ending at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Acc

end
-- ==== Proof.KernelIdealBody.lean ====
/-
  The kernel body of the router product, run once in each of its two cases, at any float instance.

  The grid is 16 row blocks by 2 halves of the contracted axis; point t = 2·i + j.  At j = 0 the body stores the
  partial product of the point's two input blocks into the output's staging buffer; at j = 1 it reads the buffer
  back and stores buffer + partial product.  Each run leaves the two input buffers as they were and the output
  buffer overwritten by one whole-block store; the list of stored pieces is what the run finds.
-/
import proofs.«103601_g45363444580704_cont_sun_m_752_16_alg».proof.Proof.Gen.KernelIdeal.Frame
import proofs.«103601_g45363444580704_cont_sun_m_752_16_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first half of the contraction: the branch that stores the partial product. -/
abbrev isFirst (i : grid0.Coords) : Prop := k0_cond1 i = 1#1
/-- The second half: the branch that adds the partial product to what the buffer holds. -/
abbrev isSecond (i : grid0.Coords) : Prop := k0_cond2 i = 1#1

theorem isFirst_iff : ∀ t : Fin cfg0.N, isFirst (grid0.coords t) ↔ t.val % 2 = 0 :=
  (by decide +kernel : ∀ t : Fin grid0.N, isFirst (grid0.coords t) ↔ t.val % 2 = 0)
theorem isSecond_iff : ∀ t : Fin cfg0.N, isSecond (grid0.coords t) ↔ t.val % 2 = 1 :=
  (by decide +kernel : ∀ t : Fin grid0.N, isSecond (grid0.coords t) ↔ t.val % 2 = 1)

/-- No window is idle anywhere: one of the two branches stores at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- The staging memrefs the pipeline passes the body at point `t`. -/
abbrev bufX (t : Fin cfg0.N) : Memref sig .tc .vmem S512x2048 .f32 := win0_0.stage (cfg0.slots t 0)
abbrev bufX_whole (t : Fin cfg0.N) : (bufX t).IsWhole := hstage0_0 ((cfg0.slots t 0).cast nbuf0_0)
abbrev bufW (t : Fin cfg0.N) : Memref sig .tc .vmem S64x2048 .f32 := win0_1.stage (cfg0.slots t 1)
abbrev bufW_whole (t : Fin cfg0.N) : (bufW t).IsWhole := hstage0_1 ((cfg0.slots t 1).cast nbuf0_1)
abbrev bufO (t : Fin cfg0.N) : Memref sig .tc .vmem S512x64 .f32 := win0_2.stage (cfg0.slots t 2)
abbrev bufO_whole (t : Fin cfg0.N) : (bufO t).IsWhole := hstage0_2 ((cfg0.slots t 2).cast nbuf0_2)

theorem zeros2 : (![0, 0] : Fin 2 → Nat) = fun _ => 0 := funext fun a => by fin_cases a <;> rfl

/-! ## The body in the first half: the output buffer, at anything, ends at the pieces stored -/

set_option maxHeartbeats 1000000 in
noncomputable def runFirst (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : isFirst i) (hc1 : ¬isSecond i) (x0 : Vec F S512x2048 .f32) (x1 : Vec F S64x2048 .f32) :
    { L : List (View.Piece (Elt F) S512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__router_kernel i arg2 harg2 arg3 harg3 arg4 harg4) K } := by
  refine ⟨?_, fun E K => ?run⟩
  case run =>
    simp only [cc0__router_kernel_eq_skeleton]; unfold cc0__router_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The body in the second half: the output buffer, at `xo`, ends at the pieces stored -/

set_option maxHeartbeats 1000000 in
noncomputable def runSecond (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : ¬isFirst i) (hc1 : isSecond i) (x0 : Vec F S512x2048 .f32) (x1 : Vec F S64x2048 .f32) (xo : Vec F S512x64 .f32) :
    { L : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__router_kernel i arg2 harg2 arg3 harg3 arg4 harg4) K } := by
  refine ⟨?_, fun E K => ?run⟩
  case run =>
    simp only [cc0__router_kernel_eq_skeleton]; unfold cc0__router_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Acc

end
-- ==== Proof.KernelIdealFrame.lean ====
/-
  The pipeline's proof data for the router product, the body obligation, the run and the frame, at any float instance.

  Point t = 2·i + j works on row block i and half j of the contracted axis.  After the body at an even point the
  output's staging buffer holds the partial product of that point's blocks; after the body at an odd point it holds
  (the partial product of the point before) + (the partial product of this point), because the buffer is not written
  back between the two and the body reads it before storing.  The output block is written back after odd points only.
-/
import proofs.«103601_g45363444580704_cont_sun_m_752_16_alg».proof.Proof.KernelIdealBody

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer, as a value -/

/-- The one store of the first case covers the output block. -/
theorem coverFirst (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : isFirst i) (hc1 : ¬isSecond i) (x0 : Vec F S512x2048 .f32) (x1 : Vec F S64x2048 .f32) (y : S512x64.Idx) :
    ∃ pc ∈ (runFirst c i arg2 harg2 arg3 harg3 arg4 harg4 hc0 hc1 x0 x1).1, y ∈ pc.1.set :=
  View.cover_of_tiledL (runFirst c i arg2 harg2 arg3 harg3 arg4 harg4 hc0 hc1 x0 x1).1 S512x64.size (by sl_kernel_rfl) y

/-- So the first case leaves the partial product of the two input blocks, whatever the buffer held. -/
theorem leftFirst (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : isFirst i) (hc1 : ¬isSecond i) (x0 : Vec F S512x2048 .f32) (x1 : Vec F S64x2048 .f32) (f : arg4.view.ty.Contents (Elt F)) :
    arg4.view.read (Elt F) (arg4.view.writes (Elt F) f (runFirst c i arg2 harg2 arg3 harg3 arg4 harg4 hc0 hc1 x0 x1).1) = k0_pay1 x0 x1 := by
  rw [View.read_writes_eq_canon _ _ _ (coverFirst c i arg2 harg2 arg3 harg3 arg4 harg4 hc0 hc1 x0 x1)]
  unfold runFirst
  dsimp only
  rw [View.canon_unit_zero zeros2]
  simp only [View.readAt_eq_ld, harg2.read_unread, harg3.read_unread, View.ld_unit_zero (S := S512x2048) zeros2,
    View.ld_unit_zero (S := S64x2048) zeros2]

/-- The one store of the second case covers the output block. -/
theorem coverSecond (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : ¬isFirst i) (hc1 : isSecond i) (x0 : Vec F S512x2048 .f32) (x1 : Vec F S64x2048 .f32) (xo : Vec F S512x64 .f32) (y : S512x64.Idx) :
    ∃ pc ∈ (runSecond c i arg2 harg2 arg3 harg3 arg4 harg4 hc0 hc1 x0 x1 xo).1, y ∈ pc.1.set :=
  View.cover_of_tiledL (runSecond c i arg2 harg2 arg3 harg3 arg4 harg4 hc0 hc1 x0 x1 xo).1 S512x64.size (by sl_kernel_rfl) y

/-- So the second case leaves (what the buffer held) + (the partial product of the two input blocks). -/
theorem leftSecond (c : Dev nD) (i : grid0.Coords) (arg2 : Memref sig .tc .vmem S512x2048 .f32) (harg2 : arg2.IsWhole)
    (arg3 : Memref sig .tc .vmem S64x2048 .f32) (harg3 : arg3.IsWhole) (arg4 : Memref sig .tc .vmem S512x64 .f32) (harg4 : arg4.IsWhole)
    (hc0 : ¬isFirst i) (hc1 : isSecond i) (x0 : Vec F S512x2048 .f32) (x1 : Vec F S64x2048 .f32) (xo : Vec F S512x64 .f32)
    (f : arg4.view.ty.Contents (Elt F)) :
    arg4.view.read (Elt F) (arg4.view.writes (Elt F) f (runSecond c i arg2 harg2 arg3 harg3 arg4 harg4 hc0 hc1 x0 x1 xo).1) = k0_pay2 x0 x1 xo := by
  rw [View.read_writes_eq_canon _ _ _ (coverSecond c i arg2 harg2 arg3 harg3 arg4 harg4 hc0 hc1 x0 x1 xo)]
  unfold runSecond
  dsimp only
  rw [View.canon_unit_zero zeros2]
  simp only [View.readAt_eq_ld, harg2.read_unread, harg3.read_unread, harg4.read_unread, View.ld_unit_zero (S := S512x2048) zeros2,
    View.ld_unit_zero (S := S64x2048) zeros2, View.ld_unit_zero (S := S512x64) zeros2]

/-! ## What the output buffer holds after each point -/

/-- The point before `t` (`t` itself at the first point). -/
def prevPt (t : Fin cfg0.N) : Fin cfg0.N := ⟨t.val - 1, Nat.lt_of_le_of_lt (Nat.sub_le _ _) t.isLt⟩

/-- The partial product of point `t`'s two input blocks. -/
def partialAt (c : Dev nD) (t : Fin cfg0.N) : Vec F S512x64 .f32 := k0_pay1 (iblk m c 0 t) (iblk m c 1 t)

/-- The output buffer after the body at `t`: at an even point the point's partial product; at an odd point the
    partial product of the point before, plus this point's. -/
def heldAfter (c : Dev nD) (t : Fin cfg0.N) : Vec F S512x64 .f32 :=
  if t.val % 2 = 0 then partialAt m c t
  else k0_pay2 (iblk m c 0 t) (iblk m c 1 t) (partialAt m c (prevPt t))

theorem heldAfter_even (c : Dev nD) (t : Fin cfg0.N) (h : t.val % 2 = 0) : heldAfter m c t = k0_pay1 (iblk m c 0 t) (iblk m c 1 t) := by
  unfold heldAfter partialAt; rw [if_pos h]

theorem heldAfter_odd (c : Dev nD) (t : Fin cfg0.N) (h : t.val % 2 = 1) :
    heldAfter m c t = k0_pay2 (iblk m c 0 t) (iblk m c 1 t) (heldAfter m c (prevPt t)) := by
  have hp : (prevPt t).val % 2 = 0 := by show (t.val - 1) % 2 = 0; omega
  rw [heldAfter_even m c (prevPt t) hp]
  unfold heldAfter partialAt; rw [if_neg (by omega)]

/-! ## The proof data -/

/-- The arrays as the region finds them; after the body each input buffer at its block and the output buffer at
    `heldAfter`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => heldAfter m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = heldAfter m c t := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The output window is idle at no coordinates: one of the two branches is taken whatever the second coordinate. -/
theorem live2_all : ∀ i : grid0.Coords, cfg0.idle 2 i = false := by decide +kernel

/-- At an odd point the output's current staging buffer holds what the body left at the point before: the point is not
    the first, and the block is not written back after an even point. -/
theorem before2_odd (c : Dev nD) (t : Fin cfg0.N) (h1 : t.val % 2 = 1) (d) :
    (dats m 0 c).before 2 t d = heldAfter m c (prevPt t) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    live2_all (fun _ _ => rfl)]
  dsimp only [dats]
  rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (bufX t) fullShare ((dats m 0 c).before 0 t d))
    ∗ (∃ d, owns (c : Thread nD τ) (bufW t) fullShare ((dats m 0 c).before 1 t d))
    ∗ (∃ d, owns (c : Thread nD τ) (bufO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold their blocks; the parity of the point says which case it is in;
    at an odd point the output buffer holds what the point before left; so the case's run applies and leaves the
    output buffer at `heldAfter`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (bufX t) fullShare ((dats m 0 c).after 0 t) from by
    unfold Dat.leavesExact; rw [live0 t], after0]
  rw [show (dats m 0 c).leavesExact 1 t = owns (c : Thread nD τ) (bufW t) fullShare ((dats m 0 c).after 1 t) from by
    unfold Dat.leavesExact; rw [live1 t], after1]
  rw [show (dats m 0 c).leavesExact 2 t = owns (c : Thread nD τ) (bufO t) fullShare ((dats m 0 c).after 2 t) from by
    unfold Dat.leavesExact; rw [live2 t], after2]
  have hN : t.val < 32 := lt_of_lt_of_eq t.isLt (show cfg0.N = 32 from N_0)
  by_cases h0 : t.val % 2 = 0
  · have h1 : ¬t.val % 2 = 1 := by omega
    rw [heldAfter_even m c t h0]
    iintro ⟨HΦ, Ho, ⟨%d0, H0⟩, ⟨%d1, H1⟩, ⟨%d2, H2⟩⟩
    iapply ((runFirst c (grid0.coords t) _ _ _ _ _ _ ((isFirst_iff t).mpr h0) (fun h => h1 ((isSecond_iff t).mp h)) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact leftFirst c _ _ _ _ _ _ _ _ _ _ _ _
  · have h1 : t.val % 2 = 1 := by omega
    rw [heldAfter_odd m c t h1]
    simp only [before2_odd m c t h1]
    iintro ⟨HΦ, Ho, ⟨%d0, H0⟩, ⟨%d1, H1⟩, ⟨%d2, H2⟩⟩
    iapply ((runSecond c (grid0.coords t) _ _ _ _ _ _ (fun h => h0 ((isFirst_iff t).mp h)) ((isSecond_iff t).mpr h1) (iblk m c 0 t) (iblk m c 1 t) (heldAfter m c (prevPt t))).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact leftSecond c _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, every array of the pipeline ending at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Acc

end
-- ==== Proof.RouterSpec.lean ====
/-
  The router product as a function of its two operands, over the extended reals, and the one law the certificate needs.

  `whole X W` at (r, e) is the sum over all 4096 columns k of X(r, k) · W(e, k).  `halves X W` is the same sum taken
  as (the columns below 2048) + (the columns from 2048 on).  They are equal: a finite sum over Fin (2048 + 2048) splits
  into its two ranges in any additive commutative monoid, and the extended reals are one, so nothing here asks the entries
  to be finite.
-/
import Mathlib.Algebra.BigOperators.Fin
import Idealize.ShloMosaic.PureOps.Ideal
import Idealize.ShloMosaic.Lib.ValueIdx

noncomputable section

open scoped BigOperators

namespace RouterSpec

open Idealize.ShloMosaic Idealize.ShloMosaic.ValueIdx

/-- Column k of the lower half, as a column of the whole. -/
def lo (k : Fin 2048) : Fin 4096 := ⟨k.val, by have := k.isLt; omega⟩
/-- Column k of the upper half, as a column of the whole. -/
def hi (k : Fin 2048) : Fin 4096 := ⟨2048 + k.val, by have := k.isLt; omega⟩

theorem lo_val (k : Fin 2048) : (lo k).val = k.val := rfl
theorem hi_val (k : Fin 2048) : (hi k).val = 2048 + k.val := rfl

/-- The product, all columns at once. -/
def whole (X : (⟨2, ![8192, 4096]⟩ : Shape).Idx → EReal) (W : (⟨2, ![64, 4096]⟩ : Shape).Idx → EReal) :
    (⟨2, ![8192, 64]⟩ : Shape).Idx → EReal :=
  fun i => ∑ k : Fin 4096, X (ix2 (i 0) k) * W (ix2 (i 1) k)

/-- The product, the lower half of the columns first, then the upper half added. -/
def halves (X : (⟨2, ![8192, 4096]⟩ : Shape).Idx → EReal) (W : (⟨2, ![64, 4096]⟩ : Shape).Idx → EReal) :
    (⟨2, ![8192, 64]⟩ : Shape).Idx → EReal :=
  fun i => (∑ k : Fin 2048, X (ix2 (i 0) (lo k)) * W (ix2 (i 1) (lo k)))
    + (∑ k : Fin 2048, X (ix2 (i 0) (hi k)) * W (ix2 (i 1) (hi k)))

/-- A sum over the 4096 columns is the sum over the lower 2048 plus the sum over the upper 2048. -/
theorem sum_split (f : Fin 4096 → EReal) : ∑ k : Fin 4096, f k = (∑ k : Fin 2048, f (lo k)) + (∑ k : Fin 2048, f (hi k)) := by
  have h := Fin.sum_univ_add (M := EReal) (a := 2048) (b := 2048) (f : Fin (2048 + 2048) → EReal)
  refine h.trans ?_
  congr 1

theorem halves_eq_whole (X : (⟨2, ![8192, 4096]⟩ : Shape).Idx → EReal) (W : (⟨2, ![64, 4096]⟩ : Shape).Idx → EReal) :
    halves X W = whole X W := by
  funext i
  unfold halves whole
  exact (sum_split fun k => X (ix2 (i 0) k) * W (ix2 (i 1) k)).symm

end RouterSpec

end
-- ==== Proof.KernelIdealValue.lean ====
/-
  The kernel's result array at the ideal instance.

  Point t = 2·i + j reads rows 512·i … 512·i + 511 and columns 2048·j … 2048·j + 2047 of the reshaped first argument,
  and the same columns of all 64 rows of the second.  The partial product of two blocks at (p, q) is the sum over the
  block's 2048 columns of x(p, k) · w(q, k).  After an odd point the output buffer therefore holds, at (p, q), the sum
  over the lower half of the columns plus the sum over the upper half, for row 512·i + p: block (i, 0) of the product
  taken in halves.  The output is written back after odd points only, and those sixteen blocks tile the [8192, 64] array.
-/
import proofs.«103601_g45363444580704_cont_sun_m_752_16_alg».proof.Proof.KernelIdealFrame
import proofs.«103601_g45363444580704_cont_sun_m_752_16_alg».proof.Proof.RouterSpec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.AccValue

open Cert.KernelIdeal Cert.KernelIdeal.Gen Cert.KernelIdeal.Acc
open Idealize.ShloMosaic Idealize.ShloMosaic.TcCoe Idealize.SL.Sem Idealize.ShloMosaic.ValueIdx
open Idealize.ShloMosaic.Pipeline (Dat)
open RouterSpec (lo hi halves)

/-! ## The partial product at an index -/

theorem lhs0 (j : S512x64.Idx) (q : dot_S512x2048_S64x2048_S512x64_1_1_0_0_n_n.contr.Idx) : (dot_S512x2048_S64x2048_S512x64_1_1_0_0_n_n.lhsIdx j q 0).val = (j 0).val := by
  unfold DotDims.lhsIdx
  rw [dif_neg (show ¬(0 : Fin S512x2048.rank) ∈ dot_S512x2048_S64x2048_S512x64_1_1_0_0_n_n.lhsBatch by decide),
    dif_pos (show (0 : Fin S512x2048.rank) ∈ dot_S512x2048_S64x2048_S512x64_1_1_0_0_n_n.lhsNonContracting by decide)]
  rfl
theorem lhs1 (j : S512x64.Idx) (q : dot_S512x2048_S64x2048_S512x64_1_1_0_0_n_n.contr.Idx) : (dot_S512x2048_S64x2048_S512x64_1_1_0_0_n_n.lhsIdx j q 1).val = (q ⟨0, by decide⟩).val :=
  dot_S512x2048_S64x2048_S512x64_1_1_0_0_n_n.lhsIdx_val_of_single rfl j q
theorem rhs0 (j : S512x64.Idx) (q : dot_S512x2048_S64x2048_S512x64_1_1_0_0_n_n.contr.Idx) : (dot_S512x2048_S64x2048_S512x64_1_1_0_0_n_n.rhsIdx j q 0).val = (j 1).val := by
  unfold DotDims.rhsIdx
  rw [dif_neg (show ¬(0 : Fin S64x2048.rank) ∈ dot_S512x2048_S64x2048_S512x64_1_1_0_0_n_n.rhsBatch by decide),
    dif_pos (show (0 : Fin S64x2048.rank) ∈ dot_S512x2048_S64x2048_S512x64_1_1_0_0_n_n.rhsNonContracting by decide)]
  rfl
theorem rhs1 (j : S512x64.Idx) (q : dot_S512x2048_S64x2048_S512x64_1_1_0_0_n_n.contr.Idx) : (dot_S512x2048_S64x2048_S512x64_1_1_0_0_n_n.rhsIdx j q 1).val = (q ⟨0, by decide⟩).val :=
  dot_S512x2048_S64x2048_S512x64_1_1_0_0_n_n.rhsIdx_val_of_single rfl j q

/-- The partial product of two blocks at (p, q): the sum over the block's columns of x(p, k) · w(q, k). -/
theorem partial_apply (x : Vec Ideal S512x2048 .f32) (w : Vec Ideal S64x2048 .f32) (j : S512x64.Idx) :
    k0_pay1 (F := Ideal) x w j = ∑ k : Fin 2048, x (ix2 (j 0) k) * w (ix2 (j 1) k) := by
  unfold k0_pay1
  refine (Ideal.matmul_constant_zero_apply dot_S512x2048_S64x2048_S512x64_1_1_0_0_n_n none _ _ j).trans ?_
  rw [← Equiv.sum_comp (contrEquiv1 dot_S512x2048_S64x2048_S512x64_1_1_0_0_n_n 2048 rfl rfl).symm]
  refine Finset.sum_congr rfl fun k _ => ?_
  have hk := contrEquiv1_symm_val dot_S512x2048_S64x2048_S512x64_1_1_0_0_n_n 2048 rfl rfl k
  have el : dot_S512x2048_S64x2048_S512x64_1_1_0_0_n_n.lhsIdx j ((contrEquiv1 dot_S512x2048_S64x2048_S512x64_1_1_0_0_n_n 2048 rfl rfl).symm k) = ix2 (j 0) k := funext fun a => Fin.ext (by
    match a with
    | ⟨0, _⟩ => exact lhs0 _ _
    | ⟨1, _⟩ => exact (lhs1 _ _).trans hk)
  have er : dot_S512x2048_S64x2048_S512x64_1_1_0_0_n_n.rhsIdx j ((contrEquiv1 dot_S512x2048_S64x2048_S512x64_1_1_0_0_n_n 2048 rfl rfl).symm k) = ix2 (j 1) k := funext fun a => Fin.ext (by
    match a with
    | ⟨0, _⟩ => exact rhs0 _ _
    | ⟨1, _⟩ => exact (rhs1 _ _).trans hk)
  rw [el, er, shapeCast_self]
  rfl

/-- What an odd point leaves at (p, q): the partial product the buffer held, plus the point's own. -/
theorem second_apply (x xp : Vec Ideal S512x2048 .f32) (w wp : Vec Ideal S64x2048 .f32) (j : S512x64.Idx) :
    k0_pay2 (F := Ideal) x w (k0_pay1 (F := Ideal) xp wp) j
      = (∑ k : Fin 2048, xp (ix2 (j 0) k) * wp (ix2 (j 1) k)) + (∑ k : Fin 2048, x (ix2 (j 0) k) * w (ix2 (j 1) k)) := by
  unfold k0_pay2
  show shapeCast S512x64 (k0_pay1 (F := Ideal) xp wp) _ j + k0_pay1 (F := Ideal) x w j = _
  rw [shapeCast_self, partial_apply, partial_apply]

variable (m : (ℓ : Loc nD τ sig) → Buf (Elt Ideal) ℓ) (ρ : Dev nD → PrngReg)

/-! ## The blocks the windows read -/

/-- The printed index maps over the grid: point t = 2·i + j is at block (i, j) of the first operand, (0, j) of the
    second and (i, 0) of the result. -/
theorem idx_facts : ∀ t : Fin cfg0.N,
    win0_0.index t (0 : Fin 2) = t.val / 2 ∧ win0_0.index t (1 : Fin 2) = t.val % 2
    ∧ win0_1.index t (0 : Fin 2) = 0 ∧ win0_1.index t (1 : Fin 2) = t.val % 2
    ∧ win0_2.index t (0 : Fin 2) = t.val / 2 ∧ win0_2.index t (1 : Fin 2) = 0 :=
  (by decide +kernel : ∀ t : Fin grid0.N, _)

/-- The first operand's block at point t, at (p, k), is the array at (512·i + p, 2048·j + k). -/
theorem blockX_apply (c : Dev nD) (t : Fin cfg0.N) (p : Fin 512) (k : Fin 2048) (i : S8192x4096.Idx)
    (h0 : (i 0).val = win0_0.index t 0 * 512 + p.val) (h1 : (i 1).val = win0_0.index t 1 * 2048 + k.val) :
    (iblk m c 0 t : Vec Ideal S512x2048 .f32) (ix2 p k) = (V m c main_v0 : S8192x4096.Idx → EReal) i := by
  unfold iblk
  rw [View.read_apply]
  show V m c main_v0 _ = V m c main_v0 i
  congr 1
  funext a
  apply Fin.ext
  match a with
  | ⟨0, _⟩ => show win0_0.index t 0 * 512 + 1 * p.val = (i 0).val; omega
  | ⟨1, _⟩ => show win0_0.index t 1 * 2048 + 1 * k.val = (i 1).val; omega

/-- The second operand's block at point t, at (q, k), is the array at (q, 2048·j + k). -/
theorem blockW_apply (c : Dev nD) (t : Fin cfg0.N) (q : Fin 64) (k : Fin 2048) (i : S64x4096.Idx)
    (h0 : (i 0).val = win0_1.index t 0 * 64 + q.val) (h1 : (i 1).val = win0_1.index t 1 * 2048 + k.val) :
    (iblk m c 1 t : Vec Ideal S64x2048 .f32) (ix2 q k) = (V m c main_arg1 : S64x4096.Idx → EReal) i := by
  unfold iblk
  rw [View.read_apply]
  show V m c main_arg1 _ = V m c main_arg1 i
  congr 1
  funext a
  apply Fin.ext
  match a with
  | ⟨0, _⟩ => show win0_1.index t 0 * 64 + 1 * q.val = (i 0).val; omega
  | ⟨1, _⟩ => show win0_1.index t 1 * 2048 + 1 * k.val = (i 1).val; omega

/-! ## The result array -/

/-- The product in halves, of the two arrays as the region finds them. -/
def result (c : Dev nD) : S8192x64.Idx → EReal :=
  halves (V m c main_v0 : S8192x4096.Idx → EReal) (V m c main_arg1 : S64x4096.Idx → EReal)

/-- What an odd point writes back is its block of `result`. -/
theorem flushed_eq (c : Dev nD) (t : Fin cfg0.N) (hf : (cfg0.win 2).flush t = true) :
    (dats m 0 c).flushed 2 t = ((cfg0.win 2).blk t).view.read (Elt Ideal) (result m c) := by
  have h1 : t.val % 2 = 1 := (flush0_2 t).mp hf
  have hN : t.val < 32 := lt_of_lt_of_eq t.isLt (show cfg0.N = 32 from N_0)
  have hp : (prevPt t).val = t.val - 1 := rfl
  obtain ⟨a0, a1, b0, b1, c0, c1⟩ := idx_facts t
  obtain ⟨pa0, pa1, pb0, pb1, -, -⟩ := idx_facts (prevPt t)
  show (cfg0.win 2).cut (grid0.coords t) ((dats m 0 c).after 2 t) = _
  rw [after2, heldAfter_odd m c t h1, heldAfter_even m c (prevPt t) (by rw [hp]; omega)]
  funext j
  show k0_pay2 (F := Ideal) (iblk m c 0 t) (iblk m c 1 t) (k0_pay1 (F := Ideal) (iblk m c 0 (prevPt t)) (iblk m c 1 (prevPt t))) j
    = result m c (((cfg0.win 2).blk t).view.emb j)
  refine (second_apply _ _ _ _ j).trans ?_
  have hj0 : (j 0).val < 512 := (j 0).isLt
  have hj1 : (j 1).val < 64 := (j 1).isLt
  have e0 : ((((cfg0.win 2).blk t).view.emb j) 0).val = win0_2.index t 0 * 512 + 1 * (j 0).val := rfl
  have e1 : ((((cfg0.win 2).blk t).view.emb j) 1).val = win0_2.index t 1 * 64 + 1 * (j 1).val := rfl
  unfold result halves
  refine congrArg₂ (· + ·) (Finset.sum_congr rfl fun k _ => ?_) (Finset.sum_congr rfl fun k _ => ?_)
  · have hk : k.val < 2048 := k.isLt
    refine congrArg₂ (· * ·) (blockX_apply m c (prevPt t) (j 0) k _ ?_ ?_) (blockW_apply m c (prevPt t) (j 1) k _ ?_ ?_)
    · show ((((cfg0.win 2).blk t).view.emb j) 0).val = _; rw [e0, pa0, c0, hp]; omega
    · show (lo k).val = _; rw [RouterSpec.lo_val, pa1, hp]; omega
    · show ((((cfg0.win 2).blk t).view.emb j) 1).val = _; rw [e1, pb0, c1]; omega
    · show (lo k).val = _; rw [RouterSpec.lo_val, pb1, hp]; omega
  · have hk : k.val < 2048 := k.isLt
    refine congrArg₂ (· * ·) (blockX_apply m c t (j 0) k _ ?_ ?_) (blockW_apply m c t (j 1) k _ ?_ ?_)
    · show ((((cfg0.win 2).blk t).view.emb j) 0).val = _; rw [e0, a0, c0]; omega
    · show (hi k).val = _; rw [RouterSpec.hi_val, a1]; omega
    · show ((((cfg0.win 2).blk t).view.emb j) 1).val = _; rw [e1, b0, c1]; omega
    · show (hi k).val = _; rw [RouterSpec.hi_val, b1]; omega

/-- An index of the result array is in point t's block iff each coordinate is in the block's range on its axis. -/
theorem mem_blk (t : Fin cfg0.N) (i : S8192x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v1).slice (win0_2.rect t)).set ↔ _
  rw [View.set_slice_whole, Rect.mem_set_unit]
  exact Iff.rfl

/-- Row r lies in the block written back after point 2·(r / 512) + 1. -/
theorem covered (i : S8192x64.Idx) : ∃ t : Fin cfg0.N, (cfg0.win 2).flush t = true ∧ i ∈ ((cfg0.win 2).blk t).view.set := by
  have hi0 : (i 0).val < 8192 := (i 0).isLt
  have hi1 : (i 1).val < 64 := (i 1).isLt
  have hN : cfg0.N = 32 := N_0
  let t : Fin cfg0.N := ⟨2 * ((i 0).val / 512) + 1, by rw [hN]; omega⟩
  have ht : t.val = 2 * ((i 0).val / 512) + 1 := rfl
  obtain ⟨-, -, -, -, c0, c1⟩ := idx_facts t
  refine ⟨t, (flush0_2 t).mpr (by rw [ht]; omega), ?_⟩
  rw [mem_blk]
  intro a
  match a with
  | ⟨0, _⟩ => show win0_2.index t (0 : Fin 2) * 512 ≤ (i 0).val ∧ (i 0).val < win0_2.index t (0 : Fin 2) * 512 + 512; rw [c0, ht]; omega
  | ⟨1, _⟩ => show win0_2.index t (1 : Fin 2) * 64 ≤ (i 1).val ∧ (i 1).val < win0_2.index t (1 : Fin 2) * 64 + 64; rw [c1]; omega

/-- So the result array ends holding the product in halves. -/
theorem final (c : Dev nD) : (dats m 0 c).arrAt 2 cfg0.N = result m c :=
  (dats m 0 c).arrAt_eq_of_cover 2 (result m c) (flushed_eq m c) covered

/-! ## The arrays as the region finds them, in terms of the arguments -/

/-- The first operand as the region finds it is the first argument reshaped to [8192, 4096]. -/
theorem V_reshaped (c : Dev nD) :
    (V m c main_v0 : S8192x4096.Idx → EReal) = shapeCast S8192x4096 (m ((c : Thread nD τ).loc main_arg0)) shapeCasts_S2x4096x4096_S8192x4096 := by
  dsimp only [Gen.V, Gen.hostOps0]
  after_results
  rfl

/-- The run, read: the result array at the product in halves of (the first argument reshaped) and the second argument;
    the arguments unchanged. -/
theorem run : θ_run defs (onTc (τ := τ) (main (F := Ideal))) ⟨m, fun _ => 0, ρ⟩ fun r => ∀ c : Dev nD,
      r.2.mem ((c.tc : Thread nD τ).loc main_v1)
        = halves (shapeCast S8192x4096 (m ((c.tc : Thread nD τ).loc main_arg0)) shapeCasts_S2x4096x4096_S8192x4096) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans ((final m c).trans (by
        unfold result; rw [V_reshaped m c, V_main_arg1 m c])),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.KernelIdeal.AccValue

end
-- ==== Proof.RefIsWhole.lean ====
/-
  The reference's result, read index by index at the ideal instance, is the whole product: at (r, e) the host's
  dot_general sums, over all 4096 columns k, (the reshaped first argument at (r, k)) · (the transposed second argument
  at (k, e)), and the transposed second argument at (k, e) is the second argument at (e, k).
-/
import proofs.«103601_g45363444580704_cont_sun_m_752_16_alg».proof.Proof.Gen.ReferenceIdeal.Read
import proofs.«103601_g45363444580704_cont_sun_m_752_16_alg».proof.Proof.RouterSpec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

theorem result_eq (x0 : (⟨S2x4096x4096, .f32⟩ : BufTy).Contents (Elt Ideal)) (x1 : (⟨S64x4096, .f32⟩ : BufTy).Contents (Elt Ideal)) :
    val_main_v2 (F := Ideal) x0 x1 = RouterSpec.whole (val_main_v0 (F := Ideal) x0) x1 := by
  funext i
  rw [val_main_v2_apply]
  unfold RouterSpec.whole
  refine Finset.sum_congr rfl fun k _ => ?_
  rw [val_main_v1_apply]
  have el : lidx_main_v2 i k = ix2 (i 0) k := funext fun a => by
    match a with
    | ⟨0, _⟩ => rfl
    | ⟨1, _⟩ => rfl
  have er : idx_main_v1 (ridx_main_v2 i k) = ix2 (i 1) k := funext fun a => by
    match a with
    | ⟨0, _⟩ => rfl
    | ⟨1, _⟩ => rfl
  rw [el, er]
  rfl

end Cert.ReferenceIdeal.RefValue

end
-- ==== Proof.lean ====
/-
  The top-k router's logits: hidden_states reshaped to [8192, 4096], times the transpose of weight [64, 4096].

  The kernel walks a 16 × 2 grid: row block i of 512 rows, and half j of the 4096 contracted columns.  At j = 0 it
  stores the partial product of the two blocks into the output block; at j = 1 it adds the second partial product to
  what the block holds; the block is written back after j = 1.  So entry (r, e) of the result is

      (Σ_{k < 2048} X(r, k) · W(e, k)) + (Σ_{2048 ≤ k < 4096} X(r, k) · W(e, k)),

  with X the reshaped first argument.  The reference computes Σ_{k < 4096} X(r, k) · W(e, k) in one dot_general (its
  transpose of W only renames the index).  Over the extended reals the two are equal because a finite sum splits into
  the sums over two complementary ranges in any additive commutative monoid; no entry needs to be finite, so the
  precondition is never opened.

  The three frames: each kernel program's frame is its pipeline run (body run in each of the two cases, the output
  buffer's contents named point by point); the reference's is its run with the result dropped.  The idealization
  rewrote nothing, so that conjunct is trivial.
-/
import proofs.«103601_g45363444580704_cont_sun_m_752_16_alg».proof.Defs
import proofs.«103601_g45363444580704_cont_sun_m_752_16_alg».proof.Proof.Gen.Kernel
import proofs.«103601_g45363444580704_cont_sun_m_752_16_alg».proof.Proof.Gen.KernelIdeal
import proofs.«103601_g45363444580704_cont_sun_m_752_16_alg».proof.Proof.Gen.ReferenceIdeal
import proofs.«103601_g45363444580704_cont_sun_m_752_16_alg».proof.Proof.Gen.Pre_finite_inputs
import proofs.«103601_g45363444580704_cont_sun_m_752_16_alg».proof.Proof.Gen.ReferenceIdeal.Run
import proofs.«103601_g45363444580704_cont_sun_m_752_16_alg».proof.Proof.Gen.ReferenceIdeal.Read
import proofs.«103601_g45363444580704_cont_sun_m_752_16_alg».proof.Proof.KernelFrame
import proofs.«103601_g45363444580704_cont_sun_m_752_16_alg».proof.Proof.KernelIdealFrame
import proofs.«103601_g45363444580704_cont_sun_m_752_16_alg».proof.Proof.KernelIdealValue
import proofs.«103601_g45363444580704_cont_sun_m_752_16_alg».proof.Proof.RefIsWhole
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Acc.frame m ρ

theorem frame_ki : Cert.frame_KernelIdeal := fun m ρ _ => Cert.KernelIdeal.Acc.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the product of (the first argument reshaped) with the second: the kernel at the product taken
    in two halves of the columns, the reference at the whole sum; the two agree on every extended real. -/
theorem algebraic : Cert.algebraic_KernelIdeal_ReferenceIdeal := by
  intro m ρ m' ρ' _ hagree
  refine ⟨_, Cert.KernelIdeal.AccValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2,
    RouterSpec.halves_eq_whole]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
